-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) (main_arg1 : FVec F S4x4096x128 .f32) (main_arg2 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  let main_v9 : FVec F S4x4096x128 .f32 := Host.absf main_arg2
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_c_3 : IVec S_ 1 := constantI S_ 1 1#1
  let main_v12 : IVec S_ 1 := (fun x v => Host.reduce IntOp.andi x v reducesTo_S4x4096x128_S_d0_1_2 h_S_) main_v11 main_c_3
  let main_v13 : IVec S_ 1 := andi main_v8 main_v12
  main_v13
-- ==== Kernel.lean ====
abbrev S4x4096x128 : Shape := ⟨3, ![4, 4096, 128]⟩
abbrev S4x512x128 : Shape := ⟨3, ![4, 512, 128]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096x128, .f32⟩
  | .hbm, ⟨3, _⟩ => ⟨S4x4096x128, .f32⟩
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S4x512x128, .f32⟩
  | .local _ .vmem, ⟨5, _⟩ => ⟨S4x512x128, .f32⟩
  | .local _ .vmem, ⟨6, _⟩ => ⟨S4x512x128, .f32⟩
  | .local _ .vmem, ⟨7, _⟩ => ⟨S4x512x128, .f32⟩
  | .local _ .vmem, ⟨8, _⟩ => ⟨S4x512x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_22 : BitVec 32 := 0#32
  let v41 : BitVec 1 := Scalar.cmpi .ne v40 c0_i32_22
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S4x512x128_S4x512x128_0_0_0 : ∀ a, (![0, 0, 0] : Fin 3 → Nat) a + S4x512x128.size a ≤ S4x512x128.size a
  h_S4x512x128 : 0 < S4x512x128.numel
  shapeCasts_S4x512x128_S4x512x128 : S4x512x128.ShapeCasts S4x512x128
  bitsLt_bf16_f32 : FTy.bits .bf16 < FTy.bits .f32
  reduces_S4x512x512_S512x512 : S4x512x512.Reduces [0] S512x512
  shapeCasts_S512x512_S1x512x512 : S512x512.ShapeCasts S1x512x512
  broadcasts_S1x512x512_S4x512x512 : S1x512x512.Broadcasts S4x512x512
  dot_S4x512x128_S4x512x128_S4x512x512_2_2_1_1_0_0_wf : DotDims.WF S4x512x128 S4x512x128 S4x512x512 [2] [2] [1] [1] [0] [0]
  dot_S4x512x512_S4x512x128_S4x512x128_2_1_1_2_0_0_wf : DotDims.WF S4x512x512 S4x512x128 S4x512x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x128.size a ≤ S4x4096x128.size a
  hwx0_0 : ∀ i : grid0.Coords, EltTy.bits .f32 = 32 ∨ (Rect.block (s := S4x4096x128) S4x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x128.size a ≤ S4x4096x128.size a
  hwx0_1 : ∀ i : grid0.Coords, EltTy.bits .f32 = 32 ∨ (Rect.block (s := S4x4096x128) S4x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x128.size a ≤ S4x4096x128.size a
  hwx0_2 : ∀ i : grid0.Coords, EltTy.bits .f32 = 32 ∨ (Rect.block (s := S4x4096x128) S4x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x128.size a ≤ S4x4096x128.size a
  hwx0_3 : ∀ i : grid0.Coords, EltTy.bits .f32 = 32 ∨ (Rect.block (s := S4x4096x128) S4x512x128.size (cc0_transform_3 i) (hinb0_3 i)).WholeWords (EltTy.packing .f32)

variable [Facts₀]

def dot_S4x512x128_S4x512x128_S4x512x512_2_2_1_1_0_0 : DotDims S4x512x128 S4x512x128 S4x512x512 where
  lhsContracting := [2]
  rhsContracting := [2]
  lhsNonContracting := [1]
  rhsNonContracting := [1]
  lhsBatch := [0]
  rhsBatch := [0]
  wf := dot_S4x512x128_S4x512x128_S4x512x512_2_2_1_1_0_0_wf
def dot_S4x512x512_S4x512x128_S4x512x128_2_1_1_2_0_0 : DotDims S4x512x512 S4x512x128 S4x512x128 where
  lhsContracting := [2]
  rhsContracting := [1]
  lhsNonContracting := [1]
  rhsNonContracting := [2]
  lhsBatch := [0]
  rhsBatch := [0]
  wf := dot_S4x512x512_S4x512x128_S4x512x128_2_1_1_2_0_0_wf

abbrev win0_0 : Pipeline.Window sig grid0 :=
  Pipeline.Window.ofSpec (Memref.whole main_arg0) S4x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S_ : Shape := ⟨0, ![]⟩
abbrev S4096x4096 : Shape := ⟨2, ![4096, 4096]⟩
abbrev S1x4096x4096 : Shape := ⟨3, ![1, 4096, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096x128, .f32⟩
  | .hbm, ⟨3, _⟩ => ⟨S4x4096x4096, .f32⟩
  | .hbm, ⟨4, _⟩ => ⟨S_, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S1x4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4096x4096, .f32⟩
  | .hbm, ⟨15, _⟩ => ⟨S1x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S1x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4096x4096, .f32⟩
  | .hbm, ⟨29, _⟩ => ⟨S1x4096x4096, .f32⟩
  | .hbm, ⟨30, _⟩ => ⟨S4x4096x4096, .f32⟩
  | .hbm, ⟨31, _⟩ => ⟨S4x4096x4096, .f32⟩
  | .hbm, ⟨32, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  reducesTo_S4x4096x4096_S4096x4096_d0 : S4x4096x4096.ReducesTo [0] S4096x4096
  h_S_ : 0 < S_.numel
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.TilePieces.lean ====
/-
  What one grid point leaves in the accumulator and in the output block, as values.

  A point of the first column tile (m = 0) stores zeros into the accumulator and then adds its tile's product:
  it leaves 0 + P.  Every later point adds its product to what the point before left: acc + P.  The point of the
  last column tile (m = 7) also copies the accumulator, as just updated, into the output block: acc + P again.
  Here P is the body's long payload of the point's three input blocks.
-/
import proofs.«114474_j3882650435656_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0, 0] : Fin 3 → Nat) = fun _ => 0 := funext fun a => by fin_cases a <;> rfl

/-- The zero block a first-tile point stores. -/
abbrev zeroBlock : Vec F S4x512x128 .f32 := broadcast S4x512x128 (Scalar.ofBits .f32 0x00000000#32)

/-- A first-tile point leaves 0 + P in the accumulator. -/
theorem acc_first (c : Dev nD) (i : grid0.Coords) (a2 : Memref sig .tc .vmem S4x512x128 .f32) (h2 : a2.IsWhole) (a3 : Memref sig .tc .vmem S4x512x128 .f32) (h3 : a3.IsWhole) (a4 : Memref sig .tc .vmem S4x512x128 .f32) (h4 : a4.IsWhole) (a5 : Memref sig .tc .vmem S4x512x128 .f32) (h5 : a5.IsWhole) (a6 : Memref sig .tc .vmem S4x512x128 .f32) (h6 : a6.IsWhole) (hc0 : cond0_0 i) (hc1 : ¬cond0_1 i)
    (x0 x1 x2 : Vec F S4x512x128 .f32) :
    sout0_A_0 c i a2 h2 a3 h3 a4 h4 a5 h5 a6 h6 hc0 hc1 x0 x1 x2 = addf zeroBlock (k0_pay3 x0 x1 x2) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S4x512x128) hz, View.readCov_unit_zero (S := S4x512x128) _ hz]
  unfold k0_pay2 k0_pay1
  simp only [View.readAt_eq_ld, h2.read_unread, h3.read_unread, h4.read_unread, View.ld_unit_zero (S := S4x512x128) hz, shapeCast_self]

/-- A middle point leaves acc + P in the accumulator. -/
theorem acc_middle (c : Dev nD) (i : grid0.Coords) (a2 : Memref sig .tc .vmem S4x512x128 .f32) (h2 : a2.IsWhole) (a3 : Memref sig .tc .vmem S4x512x128 .f32) (h3 : a3.IsWhole) (a4 : Memref sig .tc .vmem S4x512x128 .f32) (h4 : a4.IsWhole) (a5 : Memref sig .tc .vmem S4x512x128 .f32) (h5 : a5.IsWhole) (a6 : Memref sig .tc .vmem S4x512x128 .f32) (h6 : a6.IsWhole) (hc0 : ¬cond0_0 i) (hc1 : ¬cond0_1 i)
    (x0 x1 x2 xs0 : Vec F S4x512x128 .f32) :
    sout0_B_0 c i a2 h2 a3 h3 a4 h4 a5 h5 a6 h6 hc0 hc1 x0 x1 x2 xs0 = addf xs0 (k0_pay3 x0 x1 x2) := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  unfold k0_pay1
  simp only [View.readAt_eq_ld, h2.read_unread, h3.read_unread, h4.read_unread, h6.read_unread, View.ld_unit_zero (S := S4x512x128) hz, shapeCast_self]

/-- A last-tile point leaves acc + P in the accumulator, -/
theorem acc_last (c : Dev nD) (i : grid0.Coords) (a2 : Memref sig .tc .vmem S4x512x128 .f32) (h2 : a2.IsWhole) (a3 : Memref sig .tc .vmem S4x512x128 .f32) (h3 : a3.IsWhole) (a4 : Memref sig .tc .vmem S4x512x128 .f32) (h4 : a4.IsWhole) (a5 : Memref sig .tc .vmem S4x512x128 .f32) (h5 : a5.IsWhole) (a6 : Memref sig .tc .vmem S4x512x128 .f32) (h6 : a6.IsWhole) (hc0 : ¬cond0_0 i) (hc1 : cond0_1 i)
    (x0 x1 x2 xs0 : Vec F S4x512x128 .f32) :
    sout0_C_0 c i a2 h2 a3 h3 a4 h4 a5 h5 a6 h6 hc0 hc1 x0 x1 x2 xs0 = addf xs0 (k0_pay3 x0 x1 x2) := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  unfold k0_pay1
  simp only [View.readAt_eq_ld, h2.read_unread, h3.read_unread, h4.read_unread, h6.read_unread, View.ld_unit_zero (S := S4x512x128) hz, shapeCast_self]

/-- and the same in the output block. -/
theorem out_last (c : Dev nD) (i : grid0.Coords) (a2 : Memref sig .tc .vmem S4x512x128 .f32) (h2 : a2.IsWhole) (a3 : Memref sig .tc .vmem S4x512x128 .f32) (h3 : a3.IsWhole) (a4 : Memref sig .tc .vmem S4x512x128 .f32) (h4 : a4.IsWhole) (a5 : Memref sig .tc .vmem S4x512x128 .f32) (h5 : a5.IsWhole) (a6 : Memref sig .tc .vmem S4x512x128 .f32) (h6 : a6.IsWhole) (hc0 : ¬cond0_0 i) (hc1 : cond0_1 i)
    (x0 x1 x2 xs0 : Vec F S4x512x128 .f32) :
    out0_C_3 c i a2 h2 a3 h3 a4 h4 a5 h5 a6 h6 hc0 hc1 x0 x1 x2 xs0 = addf xs0 (k0_pay3 x0 x1 x2) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S4x512x128) _ hz]
  unfold k0_pay1
  simp only [View.readAt_eq_ld, h2.read_unread, h3.read_unread, h4.read_unread, h6.read_unread, View.ld_unit_zero (S := S4x512x128) hz, shapeCast_self]

end Cert.KernelIdeal.Pieces

end
-- ==== Proof.LibLeadAxisSoftmax.lean ====
/-
  Softmax along the LEADING axis of an array of three axes, on the extended reals.

  For a column s of B extended reals the weight of entry b is exp (s b - m) / ∑ c, exp (s c - m), where m is the
  column's maximum taken from -inf (and once more against -inf, as jax spells it).  A vector program takes it
  by a max-reduction and a sum-reduction over axis 0 of a [B, R, C] vector, each re-laid [R, C] -> [1, R, C] ->
  [B, R, C]; a host program by a reduce with a maximum body, a reduce with an add body from 0, and two
  broadcast_in_dims.  Read at element (b, r, c), both are the weight of entry b in the column x (., r, c).
  Over any sizes B, R, C.
-/
import Idealize.ShloMosaic.PureOps.Ideal.Laws
import Idealize.ShloMosaic.Lib.ValueIdx
import Idealize.ShloMosaic.Lib.Pipeline.Value

noncomputable section

namespace Cert.LibLeadAxisSoftmax

open Idealize.ShloMosaic Idealize.ShloMosaic.ValueIdx

variable {B R C : Nat}

/-! ## The function -/

/-- The f32 word of -inf, as an extended real. -/
abbrev negInf : EReal := Ideal.ofBits .f32 0xFF800000#32

/-- A column's maximum: the fold of max from -inf, then once more against -inf. -/
def leadMax (s : Fin B → EReal) : EReal := max negInf ((Finset.univ : Finset (Fin B)).fold max negInf s)

/-- The softmax weight of entry b of the column s. -/
def leadSoftmax (s : Fin B → EReal) (b : Fin B) : EReal :=
  Ideal.div (Ideal.exp (s b - leadMax s)) (∑ c : Fin B, Ideal.exp (s c - leadMax s))

/-! ## Indices -/

/-- The reduced index (r, c) with coordinate k of axis 0 put back is (k, r, c). -/
theorem lift_lead (h : (⟨3, ![B, R, C]⟩ : Shape).Reduces [0] (⟨2, ![R, C]⟩ : Shape)) (r : Fin R) (c : Fin C)
    (k : Fin ((⟨3, ![B, R, C]⟩ : Shape).size 0)) : h.lift (ix2 r c) k = ix3 (⟨k.val, k.isLt⟩ : Fin B) r c := by
  funext a; apply Fin.ext
  fin_cases a <;> rfl

/-- [R, C] cast to [1, R, C] and broadcast to [B, R, C], read at (b, r, c), is the operand at (r, c). -/
theorem keepdims_lead {α : Type} (y : (⟨2, ![R, C]⟩ : Shape).Idx → α) (hc : (⟨2, ![R, C]⟩ : Shape).ShapeCasts (⟨3, ![1, R, C]⟩ : Shape))
    (hb : (⟨3, ![1, R, C]⟩ : Shape).Broadcasts (⟨3, ![B, R, C]⟩ : Shape)) (b : Fin B) (r : Fin R) (c : Fin C) :
    broadcastTo (⟨3, ![B, R, C]⟩ : Shape) (shapeCast (⟨3, ![1, R, C]⟩ : Shape) y hc) hb (ix3 b r c) = y (ix2 r c) := by
  refine (broadcastTo_apply _ hb (ix3 b r c) (ix3 (⟨0, Nat.one_pos⟩ : Fin 1) r c) ?_).trans ?_
  · intro a
    fin_cases a
    · show (0 : Nat) = if (1 : Nat) = 1 then 0 else _
      rw [if_pos rfl]
    · show r.val = if R = 1 then 0 else r.val
      split_ifs with h1
      · have := r.isLt; omega
      · rfl
    · show c.val = if C = 1 then 0 else c.val
      split_ifs with h1
      · have := c.isLt; omega
      · rfl
  · refine (shapeCast_addUnit_apply ![R, C] y hc _).trans ?_
    exact congrArg y (funext fun a => by fin_cases a <;> rfl)

/-! ## The vector program's reductions over axis 0 -/

/-- A max-reduction from -inf over axis 0 of a [B, R, C] vector, at (r, c), is the fold of max from -inf over the column x (., r, c). -/
theorem multiReduction_max_lead (x : FVec Ideal (⟨3, ![B, R, C]⟩ : Shape) .f32)
    (h : (⟨3, ![B, R, C]⟩ : Shape).Reduces [0] (⟨2, ![R, C]⟩ : Shape)) (hφ : FKind.Formats .f32)
    (hacc : (0xFF800000#32 : BitVec 32) = FKind.maximumf.neutral .f32 hφ) (r : Fin R) (c : Fin C) :
    multiReduction .maximumf [0] (⟨2, ![R, C]⟩ : Shape) x 0xFF800000#32 h hφ hacc (ix2 r c)
      = (Finset.univ : Finset (Fin B)).fold max negInf (fun b => x (ix3 b r c)) := by
  refine (Ideal.multiReduction_maximumf_single x _ h hφ hacc (ix2 r c)).trans ?_
  have hf : (x ∘ h.lift (ix2 r c)) = fun k : Fin B => x (ix3 k r c) := funext fun k => congrArg x (lift_lead h r c k)
  exact congrArg (fun f => Finset.fold max negInf f (Finset.univ : Finset (Fin B))) hf

/-- A sum-reduction over axis 0 of a [B, R, C] vector, at (r, c), is the sum of the column x (., r, c). -/
theorem multiReduction_add_lead (x : FVec Ideal (⟨3, ![B, R, C]⟩ : Shape) .f32)
    (h : (⟨3, ![B, R, C]⟩ : Shape).Reduces [0] (⟨2, ![R, C]⟩ : Shape)) (hφ : FKind.Formats .f32)
    (hacc : (0x00000000#32 : BitVec 32) = FKind.add.neutral .f32 hφ) (r : Fin R) (c : Fin C) :
    multiReduction .add [0] (⟨2, ![R, C]⟩ : Shape) x 0x00000000#32 h hφ hacc (ix2 r c) = ∑ b : Fin B, x (ix3 b r c) := by
  refine (Ideal.multiReduction_add_single x _ h hφ hacc (ix2 r c)).trans ?_
  exact Finset.sum_congr rfl fun k _ => congrArg x (lift_lead h r c k)

/-! ## The vector program's softmax over axis 0, at any float instance, and its element at Ideal -/

section Vector

variable {F : FTy → Type} [FloatOps F]

/-- The column maxima laid back over [B, R, C]. -/
def vecMaxB (x : FVec F (⟨3, ![B, R, C]⟩ : Shape) .f32) (hr : (⟨3, ![B, R, C]⟩ : Shape).Reduces [0] (⟨2, ![R, C]⟩ : Shape))
    (hc : (⟨2, ![R, C]⟩ : Shape).ShapeCasts (⟨3, ![1, R, C]⟩ : Shape)) (hb : (⟨3, ![1, R, C]⟩ : Shape).Broadcasts (⟨3, ![B, R, C]⟩ : Shape))
    (hφ : FKind.Formats .f32) (hmax : (0xFF800000#32 : BitVec 32) = FKind.maximumf.neutral .f32 hφ) : FVec F (⟨3, ![B, R, C]⟩ : Shape) .f32 :=
  broadcastTo (⟨3, ![B, R, C]⟩ : Shape) (shapeCast (⟨3, ![1, R, C]⟩ : Shape)
    (maximumf (broadcast (⟨2, ![R, C]⟩ : Shape) (Scalar.ofBits .f32 0xFF800000#32))
      (multiReduction .maximumf [0] (⟨2, ![R, C]⟩ : Shape) x 0xFF800000#32 hr hφ hmax)) hc) hb

/-- exp (x - column maximum). -/
def vecExpB (x : FVec F (⟨3, ![B, R, C]⟩ : Shape) .f32) (hr : (⟨3, ![B, R, C]⟩ : Shape).Reduces [0] (⟨2, ![R, C]⟩ : Shape))
    (hc : (⟨2, ![R, C]⟩ : Shape).ShapeCasts (⟨3, ![1, R, C]⟩ : Shape)) (hb : (⟨3, ![1, R, C]⟩ : Shape).Broadcasts (⟨3, ![B, R, C]⟩ : Shape))
    (hφ : FKind.Formats .f32) (hmax : (0xFF800000#32 : BitVec 32) = FKind.maximumf.neutral .f32 hφ) : FVec F (⟨3, ![B, R, C]⟩ : Shape) .f32 :=
  exp (subf x (vecMaxB x hr hc hb hφ hmax))

/-- The softmax over axis 0 as a vector program spells it. -/
def vecSoftmax (x : FVec F (⟨3, ![B, R, C]⟩ : Shape) .f32) (hr : (⟨3, ![B, R, C]⟩ : Shape).Reduces [0] (⟨2, ![R, C]⟩ : Shape))
    (hc : (⟨2, ![R, C]⟩ : Shape).ShapeCasts (⟨3, ![1, R, C]⟩ : Shape)) (hb : (⟨3, ![1, R, C]⟩ : Shape).Broadcasts (⟨3, ![B, R, C]⟩ : Shape))
    (hφ : FKind.Formats .f32) (hmax : (0xFF800000#32 : BitVec 32) = FKind.maximumf.neutral .f32 hφ)
    (hadd : (0x00000000#32 : BitVec 32) = FKind.add.neutral .f32 hφ) : FVec F (⟨3, ![B, R, C]⟩ : Shape) .f32 :=
  divf (vecExpB x hr hc hb hφ hmax)
    (broadcastTo (⟨3, ![B, R, C]⟩ : Shape) (shapeCast (⟨3, ![1, R, C]⟩ : Shape)
      (multiReduction .add [0] (⟨2, ![R, C]⟩ : Shape) (vecExpB x hr hc hb hφ hmax) 0x00000000#32 hr hφ hadd) hc) hb)

end Vector

/-- The column maxima laid back over [B, R, C], at (b, r, c), are the maximum of the column x (., r, c). -/
theorem vecMaxB_apply (x : FVec Ideal (⟨3, ![B, R, C]⟩ : Shape) .f32) (hr : (⟨3, ![B, R, C]⟩ : Shape).Reduces [0] (⟨2, ![R, C]⟩ : Shape))
    (hc : (⟨2, ![R, C]⟩ : Shape).ShapeCasts (⟨3, ![1, R, C]⟩ : Shape)) (hb : (⟨3, ![1, R, C]⟩ : Shape).Broadcasts (⟨3, ![B, R, C]⟩ : Shape))
    (hφ : FKind.Formats .f32) (hmax : (0xFF800000#32 : BitVec 32) = FKind.maximumf.neutral .f32 hφ) (b : Fin B) (r : Fin R) (c : Fin C) :
    vecMaxB x hr hc hb hφ hmax (ix3 b r c) = leadMax fun b' => x (ix3 b' r c) := by
  unfold vecMaxB
  refine (keepdims_lead _ hc hb b r c).trans ?_
  show max negInf (multiReduction .maximumf [0] (⟨2, ![R, C]⟩ : Shape) x 0xFF800000#32 hr hφ hmax (ix2 r c)) = _
  exact congrArg (max negInf) (multiReduction_max_lead x hr hφ hmax r c)

/-- exp (x - column maximum) at (b, r, c). -/
theorem vecExpB_apply (x : FVec Ideal (⟨3, ![B, R, C]⟩ : Shape) .f32) (hr : (⟨3, ![B, R, C]⟩ : Shape).Reduces [0] (⟨2, ![R, C]⟩ : Shape))
    (hc : (⟨2, ![R, C]⟩ : Shape).ShapeCasts (⟨3, ![1, R, C]⟩ : Shape)) (hb : (⟨3, ![1, R, C]⟩ : Shape).Broadcasts (⟨3, ![B, R, C]⟩ : Shape))
    (hφ : FKind.Formats .f32) (hmax : (0xFF800000#32 : BitVec 32) = FKind.maximumf.neutral .f32 hφ) (b : Fin B) (r : Fin R) (c : Fin C) :
    vecExpB x hr hc hb hφ hmax (ix3 b r c) = Ideal.exp (x (ix3 b r c) - leadMax fun b' => x (ix3 b' r c)) := by
  unfold vecExpB
  show Ideal.exp (x (ix3 b r c) - vecMaxB x hr hc hb hφ hmax (ix3 b r c)) = _
  rw [vecMaxB_apply]

/-- The vector program's softmax over axis 0, at (b, r, c), is the weight of entry b in the column x (., r, c). -/
theorem vecSoftmax_apply (x : FVec Ideal (⟨3, ![B, R, C]⟩ : Shape) .f32) (hr : (⟨3, ![B, R, C]⟩ : Shape).Reduces [0] (⟨2, ![R, C]⟩ : Shape))
    (hc : (⟨2, ![R, C]⟩ : Shape).ShapeCasts (⟨3, ![1, R, C]⟩ : Shape)) (hb : (⟨3, ![1, R, C]⟩ : Shape).Broadcasts (⟨3, ![B, R, C]⟩ : Shape))
    (hφ : FKind.Formats .f32) (hmax : (0xFF800000#32 : BitVec 32) = FKind.maximumf.neutral .f32 hφ)
    (hadd : (0x00000000#32 : BitVec 32) = FKind.add.neutral .f32 hφ) (b : Fin B) (r : Fin R) (c : Fin C) :
    vecSoftmax x hr hc hb hφ hmax hadd (ix3 b r c) = leadSoftmax (fun b' => x (ix3 b' r c)) b := by
  unfold vecSoftmax leadSoftmax
  show Ideal.div (vecExpB x hr hc hb hφ hmax (ix3 b r c)) (broadcastTo _ _ hb (ix3 b r c)) = _
  rw [vecExpB_apply, keepdims_lead _ hc hb b r c, multiReduction_add_lead _ hr hφ hadd r c]
  exact congrArg (Ideal.div _) (Finset.sum_congr rfl fun b' _ => vecExpB_apply x hr hc hb hφ hmax b' r c)

/-! ## The host program's softmax over axis 0 -/

section Host

variable {F : FTy → Type} [FloatOps F]

/-- The column maxima laid back over [B, R, C], as the host lays them. -/
def hostMaxB (x : FVec F (⟨3, ![B, R, C]⟩ : Shape) .f32) (hr : (⟨3, ![B, R, C]⟩ : Shape).ReducesTo [0] (⟨2, ![R, C]⟩ : Shape))
    (hu : 0 < (⟨0, ![]⟩ : Shape).numel) (hb0 : (⟨0, ![]⟩ : Shape).BroadcastsInDim (⟨2, ![R, C]⟩ : Shape) (![] : Fin 0 → Fin 2))
    (hb2 : (⟨2, ![R, C]⟩ : Shape).BroadcastsInDim (⟨3, ![1, R, C]⟩ : Shape) (![1, 2] : Fin 2 → Fin 3))
    (hb3 : (⟨3, ![1, R, C]⟩ : Shape).BroadcastsInDim (⟨3, ![B, R, C]⟩ : Shape) (![0, 1, 2] : Fin 3 → Fin 3)) :
    FVec F (⟨3, ![B, R, C]⟩ : Shape) .f32 :=
  broadcastInDim (⟨3, ![B, R, C]⟩ : Shape) ![0, 1, 2] hb3 (broadcastInDim (⟨3, ![1, R, C]⟩ : Shape) ![1, 2] hb2
    (maximumf (broadcastInDim (⟨2, ![R, C]⟩ : Shape) ![] hb0 (constant (⟨0, ![]⟩ : Shape) .f32 0xFF800000#32))
      (Host.reduce FloatOps.maximumf x (constant (⟨0, ![]⟩ : Shape) .f32 0xFF800000#32) hr hu)))

/-- exp (x - column maximum), as the host spells it. -/
def hostExpB (x : FVec F (⟨3, ![B, R, C]⟩ : Shape) .f32) (hr : (⟨3, ![B, R, C]⟩ : Shape).ReducesTo [0] (⟨2, ![R, C]⟩ : Shape))
    (hu : 0 < (⟨0, ![]⟩ : Shape).numel) (hb0 : (⟨0, ![]⟩ : Shape).BroadcastsInDim (⟨2, ![R, C]⟩ : Shape) (![] : Fin 0 → Fin 2))
    (hb2 : (⟨2, ![R, C]⟩ : Shape).BroadcastsInDim (⟨3, ![1, R, C]⟩ : Shape) (![1, 2] : Fin 2 → Fin 3))
    (hb3 : (⟨3, ![1, R, C]⟩ : Shape).BroadcastsInDim (⟨3, ![B, R, C]⟩ : Shape) (![0, 1, 2] : Fin 3 → Fin 3)) :
    FVec F (⟨3, ![B, R, C]⟩ : Shape) .f32 :=
  Host.exp (subf x (hostMaxB x hr hu hb0 hb2 hb3))

/-- The softmax over axis 0 as a host program spells it. -/
def hostSoftmax (x : FVec F (⟨3, ![B, R, C]⟩ : Shape) .f32) (hr : (⟨3, ![B, R, C]⟩ : Shape).ReducesTo [0] (⟨2, ![R, C]⟩ : Shape))
    (hu : 0 < (⟨0, ![]⟩ : Shape).numel) (hb0 : (⟨0, ![]⟩ : Shape).BroadcastsInDim (⟨2, ![R, C]⟩ : Shape) (![] : Fin 0 → Fin 2))
    (hb2 : (⟨2, ![R, C]⟩ : Shape).BroadcastsInDim (⟨3, ![1, R, C]⟩ : Shape) (![1, 2] : Fin 2 → Fin 3))
    (hb3 : (⟨3, ![1, R, C]⟩ : Shape).BroadcastsInDim (⟨3, ![B, R, C]⟩ : Shape) (![0, 1, 2] : Fin 3 → Fin 3)) :
    FVec F (⟨3, ![B, R, C]⟩ : Shape) .f32 :=
  Host.divf (hostExpB x hr hu hb0 hb2 hb3)
    (broadcastInDim (⟨3, ![B, R, C]⟩ : Shape) ![0, 1, 2] hb3 (broadcastInDim (⟨3, ![1, R, C]⟩ : Shape) ![1, 2] hb2
      (Host.reduceAdd (hostExpB x hr hu hb0 hb2 hb3) (constant (⟨0, ![]⟩ : Shape) .f32 0x00000000#32) hr hu)))

end Host

/-- [R, C] laid to [1, R, C] then to [B, R, C] by two broadcast_in_dims, read at (b, r, c), is the operand at (r, c). -/
theorem hostKeepdims_lead {α : Type} (y : (⟨2, ![R, C]⟩ : Shape).Idx → α)
    (hb2 : (⟨2, ![R, C]⟩ : Shape).BroadcastsInDim (⟨3, ![1, R, C]⟩ : Shape) (![1, 2] : Fin 2 → Fin 3))
    (hb3 : (⟨3, ![1, R, C]⟩ : Shape).BroadcastsInDim (⟨3, ![B, R, C]⟩ : Shape) (![0, 1, 2] : Fin 3 → Fin 3))
    (b : Fin B) (r : Fin R) (c : Fin C) :
    broadcastInDim (⟨3, ![B, R, C]⟩ : Shape) ![0, 1, 2] hb3 (broadcastInDim (⟨3, ![1, R, C]⟩ : Shape) ![1, 2] hb2 y) (ix3 b r c)
      = y (ix2 r c) := by
  refine (broadcastInDim_apply _ hb3 _ (ix3 b r c) (ix3 (⟨0, Nat.one_pos⟩ : Fin 1) r c) ?_).trans ?_
  · intro a
    fin_cases a
    · show (0 : Nat) = if (1 : Nat) = 1 then 0 else _
      rw [if_pos rfl]
    · show r.val = if R = 1 then 0 else r.val
      split_ifs with h1
      · have := r.isLt; omega
      · rfl
    · show c.val = if C = 1 then 0 else c.val
      split_ifs with h1
      · have := c.isLt; omega
      · rfl
  · refine broadcastInDim_apply _ hb2 y _ (ix2 r c) ?_
    intro a
    fin_cases a
    · show r.val = if R = 1 then 0 else r.val
      split_ifs with h1
      · have := r.isLt; omega
      · rfl
    · show c.val = if C = 1 then 0 else c.val
      split_ifs with h1
      · have := c.isLt; omega
      · rfl

/-- The host's column maxima laid back over [B, R, C], at (b, r, c), are the maximum of the column x (., r, c). -/
theorem hostMaxB_apply (x : FVec Ideal (⟨3, ![B, R, C]⟩ : Shape) .f32) (hr : (⟨3, ![B, R, C]⟩ : Shape).ReducesTo [0] (⟨2, ![R, C]⟩ : Shape))
    (h : (⟨3, ![B, R, C]⟩ : Shape).Reduces [0] (⟨2, ![R, C]⟩ : Shape))
    (hu : 0 < (⟨0, ![]⟩ : Shape).numel) (hb0 : (⟨0, ![]⟩ : Shape).BroadcastsInDim (⟨2, ![R, C]⟩ : Shape) (![] : Fin 0 → Fin 2))
    (hb2 : (⟨2, ![R, C]⟩ : Shape).BroadcastsInDim (⟨3, ![1, R, C]⟩ : Shape) (![1, 2] : Fin 2 → Fin 3))
    (hb3 : (⟨3, ![1, R, C]⟩ : Shape).BroadcastsInDim (⟨3, ![B, R, C]⟩ : Shape) (![0, 1, 2] : Fin 3 → Fin 3))
    (b : Fin B) (r : Fin R) (c : Fin C) :
    hostMaxB x hr hu hb0 hb2 hb3 (ix3 b r c) = leadMax fun b' => x (ix3 b' r c) := by
  unfold hostMaxB
  refine (hostKeepdims_lead _ hb2 hb3 b r c).trans ?_
  show max (broadcastInDim (⟨2, ![R, C]⟩ : Shape) ![] hb0 (constant (F := Ideal) (⟨0, ![]⟩ : Shape) .f32 0xFF800000#32) (ix2 r c))
    (Host.reduce FloatOps.maximumf x (constant (F := Ideal) (⟨0, ![]⟩ : Shape) .f32 0xFF800000#32) hr hu (ix2 r c)) = _
  rw [Host.reduce_eq_fold_single FloatOps.maximumf x _ hr h hu]
  have hf : (x ∘ h.lift (ix2 r c)) = fun k : Fin B => x (ix3 k r c) := funext fun k => congrArg x (lift_lead h r c k)
  rw [hf]
  rfl

/-- The host's exp (x - column maximum) at (b, r, c). -/
theorem hostExpB_apply (x : FVec Ideal (⟨3, ![B, R, C]⟩ : Shape) .f32) (hr : (⟨3, ![B, R, C]⟩ : Shape).ReducesTo [0] (⟨2, ![R, C]⟩ : Shape))
    (h : (⟨3, ![B, R, C]⟩ : Shape).Reduces [0] (⟨2, ![R, C]⟩ : Shape))
    (hu : 0 < (⟨0, ![]⟩ : Shape).numel) (hb0 : (⟨0, ![]⟩ : Shape).BroadcastsInDim (⟨2, ![R, C]⟩ : Shape) (![] : Fin 0 → Fin 2))
    (hb2 : (⟨2, ![R, C]⟩ : Shape).BroadcastsInDim (⟨3, ![1, R, C]⟩ : Shape) (![1, 2] : Fin 2 → Fin 3))
    (hb3 : (⟨3, ![1, R, C]⟩ : Shape).BroadcastsInDim (⟨3, ![B, R, C]⟩ : Shape) (![0, 1, 2] : Fin 3 → Fin 3))
    (b : Fin B) (r : Fin R) (c : Fin C) :
    hostExpB x hr hu hb0 hb2 hb3 (ix3 b r c) = Ideal.exp (x (ix3 b r c) - leadMax fun b' => x (ix3 b' r c)) := by
  unfold hostExpB
  show Ideal.exp (x (ix3 b r c) - hostMaxB x hr hu hb0 hb2 hb3 (ix3 b r c)) = _
  rw [hostMaxB_apply x hr h]

/-- The host program's softmax over axis 0, at (b, r, c), is the weight of entry b in the column x (., r, c): the same
    function as the vector program's. -/
theorem hostSoftmax_apply (x : FVec Ideal (⟨3, ![B, R, C]⟩ : Shape) .f32) (hr : (⟨3, ![B, R, C]⟩ : Shape).ReducesTo [0] (⟨2, ![R, C]⟩ : Shape))
    (h : (⟨3, ![B, R, C]⟩ : Shape).Reduces [0] (⟨2, ![R, C]⟩ : Shape))
    (hu : 0 < (⟨0, ![]⟩ : Shape).numel) (hb0 : (⟨0, ![]⟩ : Shape).BroadcastsInDim (⟨2, ![R, C]⟩ : Shape) (![] : Fin 0 → Fin 2))
    (hb2 : (⟨2, ![R, C]⟩ : Shape).BroadcastsInDim (⟨3, ![1, R, C]⟩ : Shape) (![1, 2] : Fin 2 → Fin 3))
    (hb3 : (⟨3, ![1, R, C]⟩ : Shape).BroadcastsInDim (⟨3, ![B, R, C]⟩ : Shape) (![0, 1, 2] : Fin 3 → Fin 3))
    (b : Fin B) (r : Fin R) (c : Fin C) :
    hostSoftmax x hr hu hb0 hb2 hb3 (ix3 b r c) = leadSoftmax (fun b' => x (ix3 b' r c)) b := by
  unfold hostSoftmax leadSoftmax
  show Ideal.div (hostExpB x hr hu hb0 hb2 hb3 (ix3 b r c)) (broadcastInDim _ _ hb3 _ (ix3 b r c)) = _
  rw [hostExpB_apply x hr h, hostKeepdims_lead _ hb2 hb3 b r c]
  simp only [Host.reduceAdd, Ideal.hostReduceAdd_def]
  rw [Ideal.hostReduceAdd_single hr h]
  show Ideal.div _ (Ideal.ofBits .f32 0x00000000#32 + _) = _
  rw [Ideal.ofBits_zero_f32, zero_add]
  exact congrArg (Ideal.div _) (Finset.sum_congr rfl fun k _ =>
    (congrArg (hostExpB x hr hu hb0 hb2 hb3) (lift_lead h r c k)).trans (hostExpB_apply x hr h hu hb0 hb2 hb3 _ r c))

end Cert.LibLeadAxisSoftmax

end
-- ==== Proof.LibBlockSums.lean ====
/-
  A sum over consecutive rows, cut into blocks.

  The rows 0 … A·B − 1 are A consecutive blocks of B rows, row a·B + b being row b of block a; a sum over the rows is the
  sum over the blocks of the sums over each block's rows, and so is a sum restricted to the rows that satisfy a
  predicate (the rows of one class): it is the sum over the blocks of the sums over each block's rows of the class.
  The same from a base row on, and for a stretch of rows cut in two. These are the regroupings behind "every worker
  sums its own rows, the partial sums are added up": no order or grouping is left in a sum of a commutative monoid.
-/
import Idealize.ShloMosaic.PureOps.Ideal

open scoped BigOperators

namespace Cert.LibBlockSums

variable {M : Type*} [AddCommMonoid M]

/-- A·B consecutive rows as A blocks of B. -/
theorem sum_range_mul (A B : ℕ) (f : ℕ → M) :
    ∑ n ∈ Finset.range (A * B), f n = ∑ a ∈ Finset.range A, ∑ b ∈ Finset.range B, f (a * B + b) := by
  induction A with
  | zero => simp
  | succ A ih =>
    rw [Nat.succ_mul, Finset.sum_range_add, ih, Finset.sum_range_succ]

/-- The rows of a class among A·B consecutive rows, block by block. -/
theorem sum_filter_range_mul (A B : ℕ) (p : ℕ → Prop) [DecidablePred p] (f : ℕ → M) :
    ∑ n ∈ (Finset.range (A * B)).filter p, f n
      = ∑ a ∈ Finset.range A, ∑ b ∈ (Finset.range B).filter (fun b => p (a * B + b)), f (a * B + b) := by
  rw [Finset.sum_filter, sum_range_mul]
  refine Finset.sum_congr rfl fun a _ => ?_
  rw [Finset.sum_filter]

/-- The same for the rows base … base + A·B − 1. -/
theorem sum_filter_range_mul_from (base A B : ℕ) (p : ℕ → Prop) [DecidablePred p] (f : ℕ → M) :
    ∑ n ∈ (Finset.range (A * B)).filter (fun n => p (base + n)), f (base + n)
      = ∑ a ∈ Finset.range A, ∑ b ∈ (Finset.range B).filter (fun b => p (base + (a * B + b))), f (base + (a * B + b)) :=
  sum_filter_range_mul A B (fun n => p (base + n)) (fun n => f (base + n))

/-- A stretch of rows cut in two: the first N₁ rows and the N₂ rows after them. -/
theorem sum_filter_range_add (N₁ N₂ : ℕ) (p : ℕ → Prop) [DecidablePred p] (f : ℕ → M) :
    ∑ n ∈ (Finset.range (N₁ + N₂)).filter p, f n
      = ∑ n ∈ (Finset.range N₁).filter p, f n + ∑ n ∈ (Finset.range N₂).filter (fun n => p (N₁ + n)), f (N₁ + n) := by
  rw [Finset.sum_filter, Finset.sum_range_add, Finset.sum_filter, Finset.sum_filter]

/-- A sum over the rows of a class as a sum over all rows of the row's term or zero: the form an accumulating scatter
    reads at one element. -/
theorem sum_filter_eq_sum_ite (N : ℕ) (p : ℕ → Prop) [DecidablePred p] (f : ℕ → M) :
    ∑ n ∈ (Finset.range N).filter p, f n = ∑ n ∈ Finset.range N, (if p n then f n else 0) :=
  Finset.sum_filter _ _

/-- A sum over `Fin N` is the sum over the first N natural numbers of any extension of the summand. -/
theorem sum_fin_eq_sum_range (N : ℕ) (f : ℕ → M) : ∑ n : Fin N, f n.val = ∑ n ∈ Finset.range N, f n :=
  Fin.sum_univ_eq_sum_range f N

end Cert.LibBlockSums
-- ==== Proof.AttnSpec.lean ====
/-
  Attention with the softmax taken along the BATCH axis, twice, on the extended reals.

  For K : [4, N, 128], Q : [4, M, 128] the score of (b, n, m) is ∑ e, K (b, n, e) * Q (b, m, e).  The weight of
  (b, n, m) is the softmax weight of entry b of the column of the four batches' softmax weights at (n, m): the
  softmax over the batch axis applied twice, each column (n, m) by itself.  The output at (b, n, d) is
  ∑ m, weight (b, n, m) * V (b, m, d).  Since a weight at (n, m) depends on the four scores at (n, m) only, any
  tile of rows n and columns m has the weights of the whole array at its places.
-/
import proofs.«114474_j3882650435656_1_alg».proof.Proof.LibLeadAxisSoftmax
import proofs.«114474_j3882650435656_1_alg».proof.Proof.LibBlockSums

noncomputable section

namespace Cert.AttnSpec

open Idealize.ShloMosaic Idealize.ShloMosaic.ValueIdx Cert.LibLeadAxisSoftmax

variable {N M : Nat}

/-- The score of row n of K against row m of Q in batch b. -/
def score (K : (⟨3, ![4, N, 128]⟩ : Shape).Idx → EReal) (Q : (⟨3, ![4, M, 128]⟩ : Shape).Idx → EReal)
    (b : Fin 4) (n : Fin N) (m : Fin M) : EReal :=
  ∑ e : Fin 128, K (ix3 b n e) * Q (ix3 b m e)

/-- The weight at (b, n, m): the softmax over the four batches, twice, of the scores at (n, m). -/
def weight (K : (⟨3, ![4, N, 128]⟩ : Shape).Idx → EReal) (Q : (⟨3, ![4, M, 128]⟩ : Shape).Idx → EReal)
    (b : Fin 4) (n : Fin N) (m : Fin M) : EReal :=
  leadSoftmax (leadSoftmax fun b' => score K Q b' n m) b

/-- The weighted sum of the rows of V over the columns m of one tile. -/
def mixRow (K : (⟨3, ![4, N, 128]⟩ : Shape).Idx → EReal) (Q V : (⟨3, ![4, M, 128]⟩ : Shape).Idx → EReal)
    (b : Fin 4) (n : Fin N) (d : Fin 128) : EReal :=
  ∑ m : Fin M, weight K Q b n m * V (ix3 b m d)

/-- The output array. -/
def attn (K Q V : (⟨3, ![4, 4096, 128]⟩ : Shape).Idx → EReal) : (⟨3, ![4, 4096, 128]⟩ : Shape).Idx → EReal :=
  fun i => mixRow K Q V (i 0) (i 1) (i 2)

theorem attn_apply (K Q V : (⟨3, ![4, 4096, 128]⟩ : Shape).Idx → EReal) (b : Fin 4) (n : Fin 4096) (d : Fin 128) :
    attn K Q V (ix3 b n d) = mixRow K Q V b n d := rfl

/-- A weight reads four scores: equal scores give equal weights. -/
theorem weight_congr {N' M' : Nat} (K : (⟨3, ![4, N, 128]⟩ : Shape).Idx → EReal) (Q : (⟨3, ![4, M, 128]⟩ : Shape).Idx → EReal)
    (K' : (⟨3, ![4, N', 128]⟩ : Shape).Idx → EReal) (Q' : (⟨3, ![4, M', 128]⟩ : Shape).Idx → EReal)
    (n : Fin N) (m : Fin M) (n' : Fin N') (m' : Fin M') (h : ∀ b, score K Q b n m = score K' Q' b n' m') (b : Fin 4) :
    weight K Q b n m = weight K' Q' b n' m' := by
  unfold weight
  rw [show (fun b' => score K Q b' n m) = fun b' => score K' Q' b' n' m' from funext h]

/-! ## The column sum, tile by tile -/

/-- Row r of row tile n. -/
def rowOf (n : Fin 8) (r : Fin 512) : Fin 4096 := ⟨512 * n.val + r.val, by have := n.isLt; have := r.isLt; omega⟩

/-- The summand of the output at (b, n, d) for column m, as a function of the column's number. -/
def term (K Q V : (⟨3, ![4, 4096, 128]⟩ : Shape).Idx → EReal) (b : Fin 4) (n : Fin 4096) (d : Fin 128) (m : ℕ) : EReal :=
  if h : m < 4096 then weight K Q b n ⟨m, h⟩ * V (ix3 b ⟨m, h⟩ d) else 0

theorem term_of_lt (K Q V : (⟨3, ![4, 4096, 128]⟩ : Shape).Idx → EReal) (b : Fin 4) (n : Fin 4096) (d : Fin 128) (m : ℕ)
    (h : m < 4096) : term K Q V b n d m = weight K Q b n ⟨m, h⟩ * V (ix3 b ⟨m, h⟩ d) := dif_pos h

/-- The output at (b, n, d) is the sum over the 8 column tiles of each tile's 512 summands. -/
theorem mixRow_eq_tiles (K Q V : (⟨3, ![4, 4096, 128]⟩ : Shape).Idx → EReal) (b : Fin 4) (n : Fin 4096) (d : Fin 128) :
    mixRow K Q V b n d = ∑ i ∈ Finset.range 8, ∑ j ∈ Finset.range 512, term K Q V b n d (i * 512 + j) := by
  unfold mixRow
  rw [← Cert.LibBlockSums.sum_range_mul 8 512 (term K Q V b n d), ← Cert.LibBlockSums.sum_fin_eq_sum_range (8 * 512) (term K Q V b n d)]
  exact Finset.sum_congr rfl fun m _ => (term_of_lt K Q V b n d m.val m.isLt).symm

end Cert.AttnSpec

end
-- ==== Proof.KernelBody.lean ====
/-
  The kernel body's arithmetic on one tile, read at an element.

  From the tile's blocks x0 (rows of k), x1 (rows of q), x2 (rows of v), each [4, 512, 128], the body forms the scores
  x0 · x1ᵀ batch by batch, takes the softmax along the batch axis twice, and multiplies by x2.  At the ideal values a
  change of float format is the identity and a matrix product into zeros is the plain sum, so element (b, r, d)
  of the result is ∑ j, weight (b, r, j) * x2 (b, j, d) over the tile's 512 columns j.
-/
import proofs.«114474_j3882650435656_1_alg».proof.Proof.Gen.KernelIdeal.Skeleton
import proofs.«114474_j3882650435656_1_alg».proof.Proof.AttnSpec

noncomputable section

namespace Cert.KernelIdeal.Body

open Cert.KernelIdeal Cert.KernelIdeal.Gen Idealize.ShloMosaic Idealize.ShloMosaic.ValueIdx
open Cert.LibLeadAxisSoftmax Cert.AttnSpec

section AnyFloat

variable {F : FTy → Type} [FloatOps F]

/-- The scores of the tile: x0 · x1ᵀ, batch by batch. -/
def scores (x0 x1 : Vec F S4x512x128 .f32) : FVec F S4x512x512 .f32 :=
  matmul dot_S4x512x128_S4x512x128_S4x512x512_2_2_1_1_0_0 none (truncf .bf16 x0 bitsLt_bf16_f32) (truncf .bf16 x1 bitsLt_bf16_f32)
    (constant S4x512x512 .f32 0x00000000#32)

/-- The softmax along the batch axis, as the body spells it. -/
def softB (s : FVec F S4x512x512 .f32) : FVec F S4x512x512 .f32 :=
  vecSoftmax s reduces_S4x512x512_S512x512 shapeCasts_S512x512_S1x512x512 broadcasts_S1x512x512_S4x512x512 (.inl rfl) rfl rfl

/-- The weights times the tile's rows of v. -/
def mix (w : FVec F S4x512x512 .f32) (x2 : Vec F S4x512x128 .f32) : FVec F S4x512x128 .f32 :=
  matmul dot_S4x512x512_S4x512x128_S4x512x128_2_1_1_2_0_0 none (truncf .bf16 w bitsLt_bf16_f32) (truncf .bf16 x2 bitsLt_bf16_f32)
    (constant S4x512x128 .f32 0x00000000#32)

/-- The body's one long payload is scores, softmax, softmax, mix. -/
theorem pay3_eq (x0 x1 x2 : Vec F S4x512x128 .f32) : k0_pay3 x0 x1 x2 = mix (softB (softB (scores x0 x1))) x2 := rfl

end AnyFloat

/-! ## The two matrix products at an element -/

/-- The operand indices of the first product at output (b, r, j) and contraction index q: (b, r, q) and (b, j, q). -/
theorem lhs1_0 (i : S4x512x512.Idx) (q : dot_S4x512x128_S4x512x128_S4x512x512_2_2_1_1_0_0.contr.Idx) : (dot_S4x512x128_S4x512x128_S4x512x512_2_2_1_1_0_0.lhsIdx i q 0).val = (i 0).val := by
  unfold DotDims.lhsIdx
  rw [dif_pos (show (0 : Fin S4x512x128.rank) ∈ dot_S4x512x128_S4x512x128_S4x512x512_2_2_1_1_0_0.lhsBatch by decide)]
  rfl
theorem lhs1_1 (i : S4x512x512.Idx) (q : dot_S4x512x128_S4x512x128_S4x512x512_2_2_1_1_0_0.contr.Idx) : (dot_S4x512x128_S4x512x128_S4x512x512_2_2_1_1_0_0.lhsIdx i q 1).val = (i 1).val := by
  unfold DotDims.lhsIdx
  rw [dif_neg (show ¬(1 : Fin S4x512x128.rank) ∈ dot_S4x512x128_S4x512x128_S4x512x512_2_2_1_1_0_0.lhsBatch by decide), dif_pos (show (1 : Fin S4x512x128.rank) ∈ dot_S4x512x128_S4x512x128_S4x512x512_2_2_1_1_0_0.lhsNonContracting by decide)]
  rfl
theorem lhs1_2 (i : S4x512x512.Idx) (q : dot_S4x512x128_S4x512x128_S4x512x512_2_2_1_1_0_0.contr.Idx) : (dot_S4x512x128_S4x512x128_S4x512x512_2_2_1_1_0_0.lhsIdx i q 2).val = (q ⟨0, by decide⟩).val :=
  dot_S4x512x128_S4x512x128_S4x512x512_2_2_1_1_0_0.lhsIdx_val_of_single rfl i q
theorem rhs1_0 (i : S4x512x512.Idx) (q : dot_S4x512x128_S4x512x128_S4x512x512_2_2_1_1_0_0.contr.Idx) : (dot_S4x512x128_S4x512x128_S4x512x512_2_2_1_1_0_0.rhsIdx i q 0).val = (i 0).val := by
  unfold DotDims.rhsIdx
  rw [dif_pos (show (0 : Fin S4x512x128.rank) ∈ dot_S4x512x128_S4x512x128_S4x512x512_2_2_1_1_0_0.rhsBatch by decide)]
  rfl
theorem rhs1_1 (i : S4x512x512.Idx) (q : dot_S4x512x128_S4x512x128_S4x512x512_2_2_1_1_0_0.contr.Idx) : (dot_S4x512x128_S4x512x128_S4x512x512_2_2_1_1_0_0.rhsIdx i q 1).val = (i 2).val := by
  unfold DotDims.rhsIdx
  rw [dif_neg (show ¬(1 : Fin S4x512x128.rank) ∈ dot_S4x512x128_S4x512x128_S4x512x512_2_2_1_1_0_0.rhsBatch by decide), dif_pos (show (1 : Fin S4x512x128.rank) ∈ dot_S4x512x128_S4x512x128_S4x512x512_2_2_1_1_0_0.rhsNonContracting by decide)]
  rfl
theorem rhs1_2 (i : S4x512x512.Idx) (q : dot_S4x512x128_S4x512x128_S4x512x512_2_2_1_1_0_0.contr.Idx) : (dot_S4x512x128_S4x512x128_S4x512x512_2_2_1_1_0_0.rhsIdx i q 2).val = (q ⟨0, by decide⟩).val :=
  dot_S4x512x128_S4x512x128_S4x512x512_2_2_1_1_0_0.rhsIdx_val_of_single rfl i q

theorem scores_apply (x0 x1 : Vec Ideal S4x512x128 .f32) (b : Fin 4) (r j : Fin 512) :
    scores x0 x1 (ix3 b r j) = score x0 x1 b r j := by
  unfold scores score
  refine (Ideal.matmul_constant_zero_apply dot_S4x512x128_S4x512x128_S4x512x512_2_2_1_1_0_0 none _ _ (ix3 b r j)).trans ?_
  rw [← Equiv.sum_comp (ValueIdx.contrEquiv1 dot_S4x512x128_S4x512x128_S4x512x512_2_2_1_1_0_0 128 rfl rfl).symm]
  refine Finset.sum_congr rfl fun k _ => ?_
  have hk := ValueIdx.contrEquiv1_symm_val dot_S4x512x128_S4x512x128_S4x512x512_2_2_1_1_0_0 128 rfl rfl k
  have el : dot_S4x512x128_S4x512x128_S4x512x512_2_2_1_1_0_0.lhsIdx (ix3 b r j) ((ValueIdx.contrEquiv1 dot_S4x512x128_S4x512x128_S4x512x512_2_2_1_1_0_0 128 rfl rfl).symm k) = ix3 b r k := funext fun a => Fin.ext (by
    match a with
    | ⟨0, _⟩ => exact lhs1_0 _ _
    | ⟨1, _⟩ => exact lhs1_1 _ _
    | ⟨2, _⟩ => exact (lhs1_2 _ _).trans hk)
  have er : dot_S4x512x128_S4x512x128_S4x512x512_2_2_1_1_0_0.rhsIdx (ix3 b r j) ((ValueIdx.contrEquiv1 dot_S4x512x128_S4x512x128_S4x512x512_2_2_1_1_0_0 128 rfl rfl).symm k) = ix3 b j k := funext fun a => Fin.ext (by
    match a with
    | ⟨0, _⟩ => exact rhs1_0 _ _
    | ⟨1, _⟩ => exact rhs1_1 _ _
    | ⟨2, _⟩ => exact (rhs1_2 _ _).trans hk)
  rw [el, er]
  rfl

/-- The operand indices of the second product at output (b, r, d) and contraction index q: (b, r, q) and (b, q, d). -/
theorem lhs2_0 (i : S4x512x128.Idx) (q : dot_S4x512x512_S4x512x128_S4x512x128_2_1_1_2_0_0.contr.Idx) : (dot_S4x512x512_S4x512x128_S4x512x128_2_1_1_2_0_0.lhsIdx i q 0).val = (i 0).val := by
  unfold DotDims.lhsIdx
  rw [dif_pos (show (0 : Fin S4x512x512.rank) ∈ dot_S4x512x512_S4x512x128_S4x512x128_2_1_1_2_0_0.lhsBatch by decide)]
  rfl
theorem lhs2_1 (i : S4x512x128.Idx) (q : dot_S4x512x512_S4x512x128_S4x512x128_2_1_1_2_0_0.contr.Idx) : (dot_S4x512x512_S4x512x128_S4x512x128_2_1_1_2_0_0.lhsIdx i q 1).val = (i 1).val := by
  unfold DotDims.lhsIdx
  rw [dif_neg (show ¬(1 : Fin S4x512x512.rank) ∈ dot_S4x512x512_S4x512x128_S4x512x128_2_1_1_2_0_0.lhsBatch by decide), dif_pos (show (1 : Fin S4x512x512.rank) ∈ dot_S4x512x512_S4x512x128_S4x512x128_2_1_1_2_0_0.lhsNonContracting by decide)]
  rfl
theorem lhs2_2 (i : S4x512x128.Idx) (q : dot_S4x512x512_S4x512x128_S4x512x128_2_1_1_2_0_0.contr.Idx) : (dot_S4x512x512_S4x512x128_S4x512x128_2_1_1_2_0_0.lhsIdx i q 2).val = (q ⟨0, by decide⟩).val :=
  dot_S4x512x512_S4x512x128_S4x512x128_2_1_1_2_0_0.lhsIdx_val_of_single rfl i q
theorem rhs2_0 (i : S4x512x128.Idx) (q : dot_S4x512x512_S4x512x128_S4x512x128_2_1_1_2_0_0.contr.Idx) : (dot_S4x512x512_S4x512x128_S4x512x128_2_1_1_2_0_0.rhsIdx i q 0).val = (i 0).val := by
  unfold DotDims.rhsIdx
  rw [dif_pos (show (0 : Fin S4x512x128.rank) ∈ dot_S4x512x512_S4x512x128_S4x512x128_2_1_1_2_0_0.rhsBatch by decide)]
  rfl
theorem rhs2_1 (i : S4x512x128.Idx) (q : dot_S4x512x512_S4x512x128_S4x512x128_2_1_1_2_0_0.contr.Idx) : (dot_S4x512x512_S4x512x128_S4x512x128_2_1_1_2_0_0.rhsIdx i q 1).val = (q ⟨0, by decide⟩).val :=
  dot_S4x512x512_S4x512x128_S4x512x128_2_1_1_2_0_0.rhsIdx_val_of_single rfl i q
theorem rhs2_2 (i : S4x512x128.Idx) (q : dot_S4x512x512_S4x512x128_S4x512x128_2_1_1_2_0_0.contr.Idx) : (dot_S4x512x512_S4x512x128_S4x512x128_2_1_1_2_0_0.rhsIdx i q 2).val = (i 2).val := by
  unfold DotDims.rhsIdx
  rw [dif_neg (show ¬(2 : Fin S4x512x128.rank) ∈ dot_S4x512x512_S4x512x128_S4x512x128_2_1_1_2_0_0.rhsBatch by decide), dif_pos (show (2 : Fin S4x512x128.rank) ∈ dot_S4x512x512_S4x512x128_S4x512x128_2_1_1_2_0_0.rhsNonContracting by decide)]
  rfl

theorem mix_apply (w : FVec Ideal S4x512x512 .f32) (x2 : Vec Ideal S4x512x128 .f32) (b : Fin 4) (r : Fin 512) (d : Fin 128) :
    mix w x2 (ix3 b r d) = ∑ j : Fin 512, w (ix3 b r j) * x2 (ix3 b j d) := by
  unfold mix
  refine (Ideal.matmul_constant_zero_apply dot_S4x512x512_S4x512x128_S4x512x128_2_1_1_2_0_0 none _ _ (ix3 b r d)).trans ?_
  rw [← Equiv.sum_comp (ValueIdx.contrEquiv1 dot_S4x512x512_S4x512x128_S4x512x128_2_1_1_2_0_0 512 rfl rfl).symm]
  refine Finset.sum_congr rfl fun k _ => ?_
  have hk := ValueIdx.contrEquiv1_symm_val dot_S4x512x512_S4x512x128_S4x512x128_2_1_1_2_0_0 512 rfl rfl k
  have el : dot_S4x512x512_S4x512x128_S4x512x128_2_1_1_2_0_0.lhsIdx (ix3 b r d) ((ValueIdx.contrEquiv1 dot_S4x512x512_S4x512x128_S4x512x128_2_1_1_2_0_0 512 rfl rfl).symm k) = ix3 b r k := funext fun a => Fin.ext (by
    match a with
    | ⟨0, _⟩ => exact lhs2_0 _ _
    | ⟨1, _⟩ => exact lhs2_1 _ _
    | ⟨2, _⟩ => exact (lhs2_2 _ _).trans hk)
  have er : dot_S4x512x512_S4x512x128_S4x512x128_2_1_1_2_0_0.rhsIdx (ix3 b r d) ((ValueIdx.contrEquiv1 dot_S4x512x512_S4x512x128_S4x512x128_2_1_1_2_0_0 512 rfl rfl).symm k) = ix3 b k d := funext fun a => Fin.ext (by
    match a with
    | ⟨0, _⟩ => exact rhs2_0 _ _
    | ⟨1, _⟩ => exact (rhs2_1 _ _).trans hk
    | ⟨2, _⟩ => exact rhs2_2 _ _)
  rw [el, er]
  rfl

/-! ## The softmax along the batch axis, and the whole payload, at an element -/

theorem softB_apply (s : FVec Ideal S4x512x512 .f32) (b : Fin 4) (r j : Fin 512) :
    softB s (ix3 b r j) = leadSoftmax (fun b' => s (ix3 b' r j)) b :=
  vecSoftmax_apply s _ _ _ _ _ _ b r j

/-- The payload at (b, r, d): the tile's weights against the tile's rows of v. -/
theorem pay3_apply (x0 x1 x2 : Vec Ideal S4x512x128 .f32) (b : Fin 4) (r : Fin 512) (d : Fin 128) :
    k0_pay3 x0 x1 x2 (ix3 b r d) = mixRow x0 x1 x2 b r d := by
  rw [pay3_eq, mix_apply]
  unfold mixRow weight
  refine Finset.sum_congr rfl fun j _ => congrArg (· * x2 (ix3 b j d)) ?_
  rw [softB_apply]
  refine congrArg (fun f => leadSoftmax f b) (funext fun b1 => ?_)
  rw [softB_apply]
  exact congrArg (fun f => leadSoftmax f b1) (funext fun b2 => scores_apply x0 x1 b2 r j)

end Cert.KernelIdeal.Body

end
-- ==== Proof.TileBlocks.lean ====
/-
  Which rows of k, q and v a grid point's blocks hold, and its product as summands of the output.

  Grid point t = 8 n + m works on row tile n of k and column tile m of q and v: its k block is rows 512 n … of k, its
  q and v blocks rows 512 m … of q and v.  So the body's product at (b, r, d) is the 512 summands of column tile m
  of the output at (b, 512 n + r, d).
-/
import proofs.«114474_j3882650435656_1_alg».proof.Proof.Gen.KernelIdeal.Value
import proofs.«114474_j3882650435656_1_alg».proof.Proof.TilePieces
import proofs.«114474_j3882650435656_1_alg».proof.Proof.KernelBody

set_option maxRecDepth 16384

noncomputable section

namespace Cert.KernelIdeal.Tile

open Cert.KernelIdeal Cert.KernelIdeal.Gen Cert.KernelIdeal.Pieces Cert.KernelIdeal.Body Cert.AttnSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Which tiles a point works on -/

theorem hN : cfg0.N = 64 := N_0

/-- The printed index maps over the grid: the k block and the output block are row tile t / 8, the q and v blocks
    column tile t % 8; no other axis is tiled. -/
theorem idx_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 3) = 0 ∧ win0_2.index t (1 : Fin 3) = t.val % 8 ∧ win0_2.index t (2 : Fin 3) = 0
    ∧ win0_3.index t (0 : Fin 3) = 0 ∧ win0_3.index t (1 : Fin 3) = t.val / 8 ∧ win0_3.index t (2 : Fin 3) = 0 :=
  (by decide +kernel : ∀ t : Fin grid0.N, _)

/-- The k block of a point reads row 512 (t / 8) + r of k. -/
theorem blockK (c : Dev nD) (t : Fin cfg0.N) (b : Fin 4) (r : Fin 512) (e : Fin 128) (n : Fin 4096)
    (hn : n.val = 512 * (t.val / 8) + r.val) :
    (iblk m c 0 t : Vec Ideal S4x512x128 .f32) (ix3 b r e) = V m c main_arg0 (ix3 b n e) := by
  obtain ⟨e0, e1, e2, -⟩ := idx_facts t
  unfold iblk
  rw [View.read_apply]
  have h0 : ((cfg0.win 0).blk t).view.emb (ix3 b r e) = ix3 b n e := by
    funext a; apply Fin.ext
    match a with
    | ⟨0, _⟩ => show win0_0.index t (0 : Fin 3) * 4 + 1 * b.val = b.val; omega
    | ⟨1, _⟩ => show win0_0.index t (1 : Fin 3) * 512 + 1 * r.val = n.val; omega
    | ⟨2, _⟩ => show win0_0.index t (2 : Fin 3) * 128 + 1 * e.val = e.val; omega
  rw [h0]
  rfl

/-- The q block of a point reads row 512 (t % 8) + j of q. -/
theorem blockQ (c : Dev nD) (t : Fin cfg0.N) (b : Fin 4) (j : Fin 512) (e : Fin 128) (n : Fin 4096)
    (hn : n.val = (t.val % 8) * 512 + j.val) :
    (iblk m c 1 t : Vec Ideal S4x512x128 .f32) (ix3 b j e) = V m c main_arg1 (ix3 b n e) := by
  obtain ⟨-, -, -, e0, e1, e2, -⟩ := idx_facts t
  unfold iblk
  rw [View.read_apply]
  have h0 : ((cfg0.win 1).blk t).view.emb (ix3 b j e) = ix3 b n e := by
    funext a; apply Fin.ext
    match a with
    | ⟨0, _⟩ => show win0_1.index t (0 : Fin 3) * 4 + 1 * b.val = b.val; omega
    | ⟨1, _⟩ => show win0_1.index t (1 : Fin 3) * 512 + 1 * j.val = n.val; omega
    | ⟨2, _⟩ => show win0_1.index t (2 : Fin 3) * 128 + 1 * e.val = e.val; omega
  rw [h0]
  rfl

/-- The v block of a point reads row 512 (t % 8) + j of v. -/
theorem blockV (c : Dev nD) (t : Fin cfg0.N) (b : Fin 4) (j : Fin 512) (e : Fin 128) (n : Fin 4096)
    (hn : n.val = (t.val % 8) * 512 + j.val) :
    (iblk m c 2 t : Vec Ideal S4x512x128 .f32) (ix3 b j e) = V m c main_arg2 (ix3 b n e) := by
  obtain ⟨-, -, -, -, -, -, e0, e1, e2, -⟩ := idx_facts t
  unfold iblk
  rw [View.read_apply]
  have h0 : ((cfg0.win 2).blk t).view.emb (ix3 b j e) = ix3 b n e := by
    funext a; apply Fin.ext
    match a with
    | ⟨0, _⟩ => show win0_2.index t (0 : Fin 3) * 4 + 1 * b.val = b.val; omega
    | ⟨1, _⟩ => show win0_2.index t (1 : Fin 3) * 512 + 1 * j.val = n.val; omega
    | ⟨2, _⟩ => show win0_2.index t (2 : Fin 3) * 128 + 1 * e.val = e.val; omega
  rw [h0]
  rfl

/-! ## One point's product is its column tile's summands -/

/-- The payload of point t at (b, r, d): the 512 summands of column tile t % 8 of the output at (b, 512 (t / 8) + r, d). -/
theorem tile_product (c : Dev nD) (t : Fin cfg0.N) (b : Fin 4) (r : Fin 512) (d : Fin 128) (n : Fin 4096)
    (hn : n.val = 512 * (t.val / 8) + r.val) :
    k0_pay3 (iblk m c 0 t) (iblk m c 1 t) (iblk m c 2 t) (ix3 b r d)
      = ∑ j ∈ Finset.range 512, term (V m c main_arg0) (V m c main_arg1) (V m c main_arg2) b n d ((t.val % 8) * 512 + j) := by
  have ht : t.val < 64 := lt_of_lt_of_eq t.isLt (hN)
  rw [pay3_apply]
  unfold mixRow
  rw [← Cert.LibBlockSums.sum_fin_eq_sum_range 512 (fun j => term (V m c main_arg0) (V m c main_arg1) (V m c main_arg2) b n d ((t.val % 8) * 512 + j))]
  refine Finset.sum_congr rfl fun j _ => ?_
  have hj : (t.val % 8) * 512 + j.val < 4096 := by have := j.isLt; omega
  rw [term_of_lt _ _ _ b n d _ hj, blockV m c t b j d ⟨_, hj⟩ rfl]
  refine congrArg (· * _) ?_
  refine weight_congr _ _ _ _ r j n ⟨_, hj⟩ (fun b' => ?_) b
  unfold score
  exact Finset.sum_congr rfl fun e _ => by rw [blockK m c t b' r e n hn, blockQ m c t b' j e ⟨_, hj⟩ rfl]

end Cert.KernelIdeal.Tile

end
-- ==== Proof.TileValue.lean ====
/-
  The kernel's result array is the attention output.

  The accumulator after point t = 8 n + m holds, at (b, r, d), the sum over the column tiles 0 … m of each tile's 512
  summands of the output at (b, 512 n + r, d): the first tile's point stores 0 + P, every later one adds its P, and
  adding a tile's summands to the sum over the tiles before it is the sum over one tile more.  The point of the last
  column tile copies the accumulator into the output block, which is written back to rows 512 n … 512 n + 511: all
  eight tiles' summands, the whole column sum.  The eight blocks written back cover the array.
-/
import proofs.«114474_j3882650435656_1_alg».proof.Proof.TileBlocks

set_option maxRecDepth 16384

noncomputable section

namespace Cert.KernelIdeal.Tile

open Cert.KernelIdeal Cert.KernelIdeal.Gen Cert.KernelIdeal.Pieces Cert.KernelIdeal.Body Cert.AttnSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What each point leaves, as vectors -/

/-- The product of point t's three blocks. -/
abbrev prodAt (c : Dev nD) (t : Fin cfg0.N) : Vec Ideal S4x512x128 .f32 :=
  k0_pay3 (iblk m c 0 t) (iblk m c 1 t) (iblk m c 2 t)

theorem acc_step_first (c : Dev nD) (t : Fin cfg0.N) (h0 : t.val % 8 = 0) (h1 : ¬t.val % 8 = 7) :
    (outsAt0 m c t.val t.isLt).2 = addf (F := Ideal) (φ := .f32) (zeroBlock (F := Ideal)) (prodAt m c t) := by
  rw [outsAt0_A m c t h0 h1]
  dsimp only
  exact acc_first (F := Ideal) c (grid0.coords t) (ms0_0 t) (hs0_0 t) (ms0_1 t) (hs0_1 t) (ms0_2 t) (hs0_2 t) (ms0_3 t) (hs0_3 t) scM0_0 (Memref.isWhole_whole cc0_scratch0) ((hcond0_0 t).mpr h0) (fun h => h1 ((hcond0_1 t).mp h)) (iblk m c 0 t) (iblk m c 1 t) (iblk m c 2 t)

theorem acc_step_middle (c : Dev nD) (t : Fin cfg0.N) (h0 : ¬t.val % 8 = 0) (h1 : ¬t.val % 8 = 7) :
    (outsAt0 m c t.val t.isLt).2
      = addf (F := Ideal) (φ := .f32) (outsAt0 m c (t.val - 1) (Nat.lt_of_le_of_lt (Nat.sub_le _ _) t.isLt)).2 (prodAt m c t) := by
  rw [outsAt0_B m c t h0 h1]
  dsimp only
  exact acc_middle (F := Ideal) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

theorem acc_step_last (c : Dev nD) (t : Fin cfg0.N) (h0 : ¬t.val % 8 = 0) (h1 : t.val % 8 = 7) :
    (outsAt0 m c t.val t.isLt).2
      = addf (F := Ideal) (φ := .f32) (outsAt0 m c (t.val - 1) (Nat.lt_of_le_of_lt (Nat.sub_le _ _) t.isLt)).2 (prodAt m c t) := by
  rw [outsAt0_C m c t h0 h1]
  dsimp only
  exact acc_last (F := Ideal) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

theorem out_step_last (c : Dev nD) (t : Fin cfg0.N) (h0 : ¬t.val % 8 = 0) (h1 : t.val % 8 = 7) :
    (outsAt0 m c t.val t.isLt).1
      = addf (F := Ideal) (φ := .f32) (outsAt0 m c (t.val - 1) (Nat.lt_of_le_of_lt (Nat.sub_le _ _) t.isLt)).2 (prodAt m c t) := by
  rw [outsAt0_C m c t h0 h1]
  dsimp only
  exact out_last (F := Ideal) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- At a last-tile point the output block holds what the accumulator holds. -/
theorem out_eq_acc (c : Dev nD) (t : Fin cfg0.N) (h0 : ¬t.val % 8 = 0) (h1 : t.val % 8 = 7) :
    (outsAt0 m c t.val t.isLt).1 = (outsAt0 m c t.val t.isLt).2 :=
  (out_step_last m c t h0 h1).trans (acc_step_last m c t h0 h1).symm

/-! ## The accumulator after each point -/

/-- After point n the accumulator holds, at (b, r, d), the summands of column tiles 0 … n % 8 of the output at
    (b, 512 (n / 8) + r, d): by induction on the point. -/
theorem acc_eq (c : Dev nD) (n : ℕ) : ∀ (hn : n < cfg0.N) (b : Fin 4) (r : Fin 512) (d : Fin 128) (N : Fin 4096),
    N.val = 512 * (n / 8) + r.val →
    (outsAt0 m c n hn).2 (ix3 b r d)
      = ∑ i ∈ Finset.range (n % 8 + 1), ∑ j ∈ Finset.range 512, term (V m c main_arg0) (V m c main_arg1) (V m c main_arg2) b N d (i * 512 + j) := by
  induction n using Nat.strong_induction_on with
  | _ n ih =>
    intro hn b r d N hNr
    have h64 : n < 64 := lt_of_lt_of_eq hn hN
    have hP : prodAt m c ⟨n, hn⟩ (ix3 b r d)
        = ∑ j ∈ Finset.range 512, term (V m c main_arg0) (V m c main_arg1) (V m c main_arg2) b N d (n % 8 * 512 + j) := tile_product m c ⟨n, hn⟩ b r d N hNr
    by_cases h0 : n % 8 = 0
    · have h1 : ¬n % 8 = 7 := by omega
      refine (congrFun (acc_step_first m c ⟨n, hn⟩ h0 h1) (ix3 b r d)).trans ?_
      show Ideal.ofBits .f32 0x00000000#32 + prodAt m c ⟨n, hn⟩ (ix3 b r d) = _
      rw [Ideal.ofBits_zero_f32, zero_add, hP, h0, Finset.sum_range_one]
    · have ih' := ih (n - 1) (by omega) (Nat.lt_of_le_of_lt (Nat.sub_le _ _) hn) b r d N (by omega)
      have hstep : (n - 1) % 8 + 1 = n % 8 := by omega
      have hadd : (outsAt0 m c n hn).2 (ix3 b r d)
          = (outsAt0 m c (n - 1) (Nat.lt_of_le_of_lt (Nat.sub_le _ _) hn)).2 (ix3 b r d) + prodAt m c ⟨n, hn⟩ (ix3 b r d) := by
        by_cases h1 : n % 8 = 7
        · exact congrFun (acc_step_last m c ⟨n, hn⟩ h0 h1) (ix3 b r d)
        · exact congrFun (acc_step_middle m c ⟨n, hn⟩ h0 h1) (ix3 b r d)
      rw [hadd, ih', hP, hstep]
      exact (Finset.sum_range_succ (fun i => ∑ j ∈ Finset.range 512, term (V m c main_arg0) (V m c main_arg1) (V m c main_arg2) b N d (i * 512 + j)) (n % 8)).symm

/-! ## What is written back, and the whole array -/

/-- What a last-tile point writes back is its block of the attention output. -/
theorem flushed_eq (c : Dev nD) (t : Fin cfg0.N) (hf : (cfg0.win 3).flush t = true) :
    (dats m 0 c).flushed 3 t = ((cfg0.win 3).blk t).view.read (Elt Ideal) (attn (V m c main_arg0) (V m c main_arg1) (V m c main_arg2)) := by
  have h7 : t.val % 8 = 7 := (flush0_3 t).mp hf
  have h0 : ¬t.val % 8 = 0 := by omega
  have ht : t.val < 64 := lt_of_lt_of_eq t.isLt hN
  obtain ⟨-, -, -, -, -, -, -, -, -, e0, e1, e2⟩ := idx_facts t
  rw [Cert.KernelIdeal.Value.flushed3, out_eq_acc m c t h0 h7]
  funext y
  obtain ⟨b, r, d, rfl⟩ : ∃ (b : Fin 4) (r : Fin 512) (d : Fin 128), y = ix3 b r d := ⟨y 0, y 1, y 2, eq_ix3 y⟩
  rw [View.read_apply]
  have hrow : 512 * (t.val / 8) + r.val < 4096 := by have := r.isLt; omega
  have hemb : ((cfg0.win 3).blk t).view.emb (ix3 b r d) = ix3 b (⟨512 * (t.val / 8) + r.val, hrow⟩ : Fin 4096) d := by
    funext a; apply Fin.ext
    match a with
    | ⟨0, _⟩ => show win0_3.index t (0 : Fin 3) * 4 + 1 * b.val = b.val; omega
    | ⟨1, _⟩ => show win0_3.index t (1 : Fin 3) * 512 + 1 * r.val = 512 * (t.val / 8) + r.val; omega
    | ⟨2, _⟩ => show win0_3.index t (2 : Fin 3) * 128 + 1 * d.val = d.val; omega
  rw [hemb, attn_apply, mixRow_eq_tiles]
  show (outsAt0 m c t.val t.isLt).2 (ix3 b r d) = _
  rw [acc_eq m c t.val t.isLt b r d ⟨_, hrow⟩ rfl, h7]
  rfl

/-- An index of the array is in point t's output block iff each coordinate is in the block's range. -/
theorem mem_blk (t : Fin cfg0.N) (i : S4x4096x128.Idx) :
    i ∈ ((cfg0.win 3).blk t).view.set ↔ ∀ a : Fin 3, win0_3.index t a * S4x512x128.size a ≤ (i a).val ∧ (i a).val < win0_3.index t a * S4x512x128.size a + S4x512x128.size a := by
  show i ∈ ((View.whole main_v0).slice (win0_3.rect t)).set ↔ _
  rw [View.set_slice_whole, Rect.mem_set_unit]
  exact Iff.rfl

/-- Row n of the array is written back by the last-tile point of row tile n / 512. -/
theorem cover (i : S4x4096x128.Idx) : ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 128 := (i 2).isLt
  have hlt : 8 * ((i 1).val / 512) + 7 < cfg0.N := by rw [hN]; omega
  obtain ⟨-, -, -, -, -, -, -, -, -, e0, e1, e2⟩ := idx_facts ⟨8 * ((i 1).val / 512) + 7, hlt⟩
  have e1' : win0_3.index ⟨8 * ((i 1).val / 512) + 7, hlt⟩ (1 : Fin 3) = (i 1).val / 512 := by
    rw [e1]; show (8 * ((i 1).val / 512) + 7) / 8 = _; omega
  refine ⟨⟨8 * ((i 1).val / 512) + 7, hlt⟩, (flush0_3 _).mpr (by show (8 * ((i 1).val / 512) + 7) % 8 = 7; omega), ?_⟩
  rw [mem_blk]
  intro a
  match a with
  | ⟨0, _⟩ =>
    show win0_3.index _ (0 : Fin 3) * 4 ≤ (i 0).val ∧ (i 0).val < win0_3.index _ (0 : Fin 3) * 4 + 4
    rw [e0]; omega
  | ⟨1, _⟩ =>
    show win0_3.index _ (1 : Fin 3) * 512 ≤ (i 1).val ∧ (i 1).val < win0_3.index _ (1 : Fin 3) * 512 + 512
    rw [e1']; omega
  | ⟨2, _⟩ =>
    show win0_3.index _ (2 : Fin 3) * 128 ≤ (i 2).val ∧ (i 2).val < win0_3.index _ (2 : Fin 3) * 128 + 128
    rw [e2]; omega

/-- The result array after the run is the attention output of the argument arrays. -/
theorem final (c : Dev nD) : (dats m 0 c).arrAt 3 cfg0.N = attn (V m c main_arg0) (V m c main_arg1) (V m c main_arg2) :=
  (dats m 0 c).arrAt_eq_of_cover 3 (attn (V m c main_arg0) (V m c main_arg1) (V m c main_arg2)) (fun t hf => flushed_eq m c t hf) cover

/-- The kernel's run: the result array at the attention output, the arguments unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Tile

end
-- ==== Proof.RefValue.lean ====
/-
  The reference's result is the attention output.

  Its stages are: the scores k · qᵀ batch by batch; the softmax along the batch axis, as a host program spells it,
  twice; the product with v.  Read at an element: the weight at (b, n, m) against v (b, m, d), summed over all
  4096 columns m.
-/
import proofs.«114474_j3882650435656_1_alg».proof.Proof.Gen.ReferenceIdeal.Read
import proofs.«114474_j3882650435656_1_alg».proof.Proof.AttnSpec

noncomputable section

namespace Cert.ReferenceIdeal.RefValue

open Cert.ReferenceIdeal Cert.ReferenceIdeal.Gen Cert.ReferenceIdeal.Read
open Idealize.ShloMosaic Idealize.ShloMosaic.ValueIdx Cert.LibLeadAxisSoftmax Cert.AttnSpec

section AnyFloat

variable {F : FTy → Type} [FloatOps F]

/-- The stage after the first softmax is the host's softmax along axis 0 of the scores; -/
theorem v11_eq (x0 x1 : (⟨S4x4096x128, .f32⟩ : BufTy).Contents (Elt F)) :
    val_main_v11 (F := F) x0 x1 = hostSoftmax (val_main_v0 (F := F) x0 x1) reducesTo_S4x4096x4096_S4096x4096_d0 h_S_ bcast_S_S4096x4096 bcast_S4096x4096_S1x4096x4096_1_2 bcast_S1x4096x4096_S4x4096x4096_0_1_2 := rfl

/-- the stage after the second is the same of the first's. -/
theorem v22_eq (x0 x1 : (⟨S4x4096x128, .f32⟩ : BufTy).Contents (Elt F)) :
    val_main_v22 (F := F) x0 x1 = hostSoftmax (val_main_v11 (F := F) x0 x1) reducesTo_S4x4096x4096_S4096x4096_d0 h_S_ bcast_S_S4096x4096 bcast_S4096x4096_S1x4096x4096_1_2 bcast_S1x4096x4096_S4x4096x4096_0_1_2 := rfl

end AnyFloat

theorem v0_apply (x0 x1 : (⟨S4x4096x128, .f32⟩ : BufTy).Contents (Elt Ideal)) (b : Fin 4) (n k : Fin 4096) :
    val_main_v0 (F := Ideal) x0 x1 (ix3 b n k) = score (N := 4096) (M := 4096) x0 x1 b n k := by
  rw [val_main_v0_apply]
  unfold score
  refine Finset.sum_congr rfl fun e _ => ?_
  have el : lidx_main_v0 (ix3 b n k) e = ix3 b n e := funext fun a => Fin.ext (by
    match a with
    | ⟨0, _⟩ => rfl
    | ⟨1, _⟩ => rfl
    | ⟨2, _⟩ => rfl)
  have er : ridx_main_v0 (ix3 b n k) e = ix3 b k e := funext fun a => Fin.ext (by
    match a with
    | ⟨0, _⟩ => rfl
    | ⟨1, _⟩ => rfl
    | ⟨2, _⟩ => rfl)
  rw [el, er]

theorem v11_apply (x0 x1 : (⟨S4x4096x128, .f32⟩ : BufTy).Contents (Elt Ideal)) (b : Fin 4) (n k : Fin 4096) :
    val_main_v11 (F := Ideal) x0 x1 (ix3 b n k) = leadSoftmax (fun b' => score (N := 4096) (M := 4096) x0 x1 b' n k) b := by
  rw [v11_eq]
  refine (hostSoftmax_apply _ _ (by decide) _ _ _ _ b n k).trans ?_
  exact congrArg (fun f => leadSoftmax f b) (funext fun b' => v0_apply x0 x1 b' n k)

theorem v22_apply (x0 x1 : (⟨S4x4096x128, .f32⟩ : BufTy).Contents (Elt Ideal)) (b : Fin 4) (n k : Fin 4096) :
    val_main_v22 (F := Ideal) x0 x1 (ix3 b n k) = weight (N := 4096) (M := 4096) x0 x1 b n k := by
  rw [v22_eq]
  refine (hostSoftmax_apply _ _ (by decide) _ _ _ _ b n k).trans ?_
  unfold weight
  exact congrArg (fun f => leadSoftmax f b) (funext fun b' => v11_apply x0 x1 b' n k)

/-- The reference's result, as a function of its three arguments, is the attention output. -/
theorem result_eq_attn (x0 x1 x2 : (⟨S4x4096x128, .f32⟩ : BufTy).Contents (Elt Ideal)) :
    val_main_v23 (F := Ideal) x0 x1 x2 = attn x0 x1 x2 := by
  funext i
  obtain ⟨b, n, d, rfl⟩ : ∃ (b : Fin 4) (n : Fin 4096) (d : Fin 128), i = ix3 b n d := ⟨i 0, i 1, i 2, eq_ix3 i⟩
  rw [val_main_v23_apply, attn_apply]
  unfold mixRow
  refine Finset.sum_congr rfl fun k _ => ?_
  have el : lidx_main_v23 (ix3 b n d) k = ix3 b n k := funext fun a => Fin.ext (by
    match a with
    | ⟨0, _⟩ => rfl
    | ⟨1, _⟩ => rfl
    | ⟨2, _⟩ => rfl)
  have er : ridx_main_v23 (ix3 b n d) k = ix3 b k d := funext fun a => Fin.ext (by
    match a with
    | ⟨0, _⟩ => rfl
    | ⟨1, _⟩ => rfl
    | ⟨2, _⟩ => rfl)
  rw [el, er, v22_apply]

end Cert.ReferenceIdeal.RefValue

end
-- ==== Proof.lean ====
/-
  Attention whose softmax runs along the batch axis, twice: a tiled kernel against the whole-array reference.

  Both programs compute out (b, n, d) = ∑ m, weight (b, n, m) * v (b, m, d), where weight (b, n, m) is the softmax
  over the four batches, applied twice, of the scores ∑ e, k (b', n, e) * q (b', m, e) at the one place (n, m).  The
  kernel cuts the rows n and the columns m into 8 × 8 tiles of 512: a weight depends only on the four scores at its
  own (n, m), so each tile has the whole array's weights at its places; for each row tile it adds the eight column
  tiles' partial products into an accumulator started at zero and writes the block out after the last.  At the ideal
  values a change of float format is the identity, a matrix product into zeros is the plain sum, and a sum of
  extended reals may be regrouped freely: the eight partial sums of 512 columns are the sum over all 4096.  No
  finiteness of the inputs is needed.

  The modules: the function itself (AttnSpec, over LibLeadAxisSoftmax); the kernel body read at an element
  (KernelBody); what one grid point leaves in the accumulator and the output block (TilePieces); which rows a point's
  blocks hold (TileBlocks); the accumulation over the grid and the cover of the array (TileValue); the reference's
  stages read at an element (RefValue).
-/
import proofs.«114474_j3882650435656_1_alg».proof.Defs
import proofs.«114474_j3882650435656_1_alg».proof.Proof.Gen.Kernel
import proofs.«114474_j3882650435656_1_alg».proof.Proof.Gen.Kernel.Skeleton
import proofs.«114474_j3882650435656_1_alg».proof.Proof.Gen.Kernel.Launch
import proofs.«114474_j3882650435656_1_alg».proof.Proof.Gen.Kernel.Points
import proofs.«114474_j3882650435656_1_alg».proof.Proof.Gen.Kernel.Frame
import proofs.«114474_j3882650435656_1_alg».proof.Proof.Gen.KernelIdeal
import proofs.«114474_j3882650435656_1_alg».proof.Proof.Gen.KernelIdeal.Skeleton
import proofs.«114474_j3882650435656_1_alg».proof.Proof.Gen.KernelIdeal.Launch
import proofs.«114474_j3882650435656_1_alg».proof.Proof.Gen.KernelIdeal.Points
import proofs.«114474_j3882650435656_1_alg».proof.Proof.Gen.KernelIdeal.Frame
import proofs.«114474_j3882650435656_1_alg».proof.Proof.Gen.ReferenceIdeal
import proofs.«114474_j3882650435656_1_alg».proof.Proof.Gen.Pre_finite_inputs
import proofs.«114474_j3882650435656_1_alg».proof.Proof.Gen.KernelIdeal.Value
import proofs.«114474_j3882650435656_1_alg».proof.Proof.Gen.ReferenceIdeal.Run
import proofs.«114474_j3882650435656_1_alg».proof.Proof.Gen.ReferenceIdeal.Read
import proofs.«114474_j3882650435656_1_alg».proof.Proof.TileValue
import proofs.«114474_j3882650435656_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result array at the attention output of arguments that agree. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq_attn,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
